-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000x32 : Shape := ⟨2, ![1000000, 32]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S100000x128 .f32) (main_arg1 : FVec F S1000000x32 .f32) (main_arg2 : FVec F S128x32 .f32) (main_arg3 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x32 .f32 := Host.absf main_arg1
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S100000x128 : Shape := ⟨2, ![100000, 128]⟩
abbrev S1000000x32 : Shape := ⟨2, ![1000000, 32]⟩
abbrev S128x32 : Shape := ⟨2, ![128, 32]⟩
abbrev S32 : Shape := ⟨1, ![32]⟩
abbrev S250000x128 : Shape := ⟨2, ![250000, 128]⟩
abbrev S1x32 : Shape := ⟨2, ![1, 32]⟩
abbrev S100000x32 : Shape := ⟨2, ![100000, 32]⟩
abbrev S4000x128 : Shape := ⟨2, ![4000, 128]⟩
abbrev S10000x128 : Shape := ⟨2, ![10000, 128]⟩
abbrev S4000x32 : Shape := ⟨2, ![4000, 32]⟩

abbrev nBuf : Space → Nat
  | .hbm => 9
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1000000x32, .f32⟩
  | .hbm, ⟨2, _⟩ => ⟨S128x32, .f32⟩
  | .hbm, ⟨3, _⟩ => ⟨S32, .f32⟩
  | .hbm, ⟨4, _⟩ => ⟨S250000x128, .f32⟩
  | .hbm, ⟨5, _⟩ => ⟨S1x32, .f32⟩
  | .hbm, ⟨6, _⟩ => ⟨S250000x128, .f32⟩
  | .hbm, ⟨7, _⟩ => ⟨S100000x32, .f32⟩
  | .hbm, ⟨8, _⟩ => ⟨S1000000x32, .f32⟩
  | .local _ .vmem, ⟨0, _⟩ => ⟨S4000x128, .f32⟩
  | .local _ .vmem, ⟨1, _⟩ => ⟨S4000x128, .f32⟩
  | .local _ .vmem, ⟨2, _⟩ => ⟨S10000x128, .f32⟩
  | .local _ .vmem, ⟨3, _⟩ => ⟨S10000x128, .f32⟩
  | .local _ .vmem, ⟨4, _⟩ => ⟨S128x32, .f32⟩
  | .local _ .vmem, ⟨5, _⟩ => ⟨S1x32, .f32⟩
  | .local _ .vmem, ⟨6, _⟩ => ⟨S10000x128, .f32⟩
  | .local _ .vmem, ⟨7, _⟩ => ⟨S10000x128, .f32⟩
  | .local _ .vmem, ⟨8, _⟩ => ⟨S4000x32, .f32⟩
  | .local _ .vmem, ⟨9, _⟩ => ⟨S4000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1000000x32_S250000x128 : S1000000x32.ShapeCasts S250000x128
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S4000x128_S4000x128_0_0 : ∀ a, (![0, 0] : Fin 2 → Nat) a + S4000x128.size a ≤ S4000x128.size a
  h_S4000x128 : 0 < S4000x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  shapeCasts_S250000x128_S1000000x32 : S250000x128.ShapeCasts S1000000x32
  dot_S4000x128_S128x32_S4000x32_1_0_0_1_n_n_wf : DotDims.WF S4000x128 S128x32 S4000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S250000x128.size a
  hwx0_1 : ∀ i : grid0.Coords, EltTy.bits .f32 = 32 ∨ (Rect.block (s := S250000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S250000x128.size a
  hwx0_4 : ∀ i : grid0.Coords, EltTy.bits .f32 = 32 ∨ (Rect.block (s := S250000x128) S10000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x32.size a ≤ S100000x32.size a
  hwx0_5 : ∀ i : grid0.Coords, EltTy.bits .f32 = 32 ∨ (Rect.block (s := S100000x32) S4000x32.size (cc0_transform_5 i) (hinb0_5 i)).WholeWords (EltTy.packing .f32)

variable [Facts₀]

def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S10000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S4000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1000000x32 : Shape := ⟨2, ![1000000, 32]⟩
abbrev S128x32 : Shape := ⟨2, ![128, 32]⟩
abbrev S32 : Shape := ⟨1, ![32]⟩
abbrev S100000x32 : Shape := ⟨2, ![100000, 32]⟩
abbrev S1x32 : Shape := ⟨2, ![1, 32]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000x32, .f32⟩
  | .hbm, ⟨2, _⟩ => ⟨S128x32, .f32⟩
  | .hbm, ⟨3, _⟩ => ⟨S32, .f32⟩
  | .hbm, ⟨4, _⟩ => ⟨S100000x32, .f32⟩
  | .hbm, ⟨5, _⟩ => ⟨S1x32, .f32⟩
  | .hbm, ⟨6, _⟩ => ⟨S100000x32, .f32⟩
  | .hbm, ⟨7, _⟩ => ⟨S100000x32, .f32⟩
  | .hbm, ⟨8, _⟩ => ⟨S_, .f32⟩
  | .hbm, ⟨9, _⟩ => ⟨S100000x32, .f32⟩
  | .hbm, ⟨10, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  dot_S100000x128_S128x32_S100000x32_1_0_0_1_n_n_wf : DotDims.WF S100000x128 S128x32 S100000x32 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.Spec.lean ====
/-
  The movie embedding as a function of the argument arrays, entry by entry.

  Entry (r, j) of relu(x·W + b) is the maximum of zero and the sum over the 128 features k of x[r,k]·W[k,j], plus b[j].
  The number of rows is a parameter, so that one definition describes a block of rows of the feature matrix and the
  whole matrix; two instances whose rows, weight columns and bias entries agree are equal (`entry_congr`). No law
  of arithmetic is involved: both programs compute this expression in this order.
-/
import Idealize.ShloMosaic.PureOps.Ideal
import Idealize.ShloMosaic.Lib.ValueIdx

noncomputable section

namespace Cert.NodeEmbed

open Idealize.ShloMosaic Idealize.ShloMosaic.ValueIdx

/-- Entry `(r, j)` of `relu(x·W + b)` over an `M`-row feature matrix: `max (Σ_k x[r,k]·W[k,j] + b[j]) 0`. -/
def entry (M : Nat) (x : (⟨2, ![M, 128]⟩ : Shape).Idx → EReal) (w : (⟨2, ![128, 32]⟩ : Shape).Idx → EReal)
    (b : Fin 32 → EReal) (r : Fin M) (j : Fin 32) : EReal :=
  max ((∑ k : Fin 128, x (ix2 r k) * w (ix2 k j)) + b j) (Ideal.ofBits .f32 0x00000000#32)

/-- The whole `[M, 32]` array of those entries. -/
def movie (M : Nat) (x : (⟨2, ![M, 128]⟩ : Shape).Idx → EReal) (w : (⟨2, ![128, 32]⟩ : Shape).Idx → EReal)
    (b : Fin 32 → EReal) : (⟨2, ![M, 32]⟩ : Shape).Idx → EReal :=
  fun i => entry M x w b (i 0) (i 1)

/-- An entry depends only on row `r` of the features, column `j` of the weights and entry `j` of the bias. -/
theorem entry_congr {M M' : Nat} {x : (⟨2, ![M, 128]⟩ : Shape).Idx → EReal} {x' : (⟨2, ![M', 128]⟩ : Shape).Idx → EReal}
    {w w' : (⟨2, ![128, 32]⟩ : Shape).Idx → EReal} {b b' : Fin 32 → EReal} {r : Fin M} {r' : Fin M'} {j j' : Fin 32}
    (hx : ∀ k : Fin 128, x (ix2 r k) = x' (ix2 r' k)) (hw : ∀ k : Fin 128, w (ix2 k j) = w' (ix2 k j'))
    (hb : b j = b' j') : entry M x w b r j = entry M' x' w' b' r' j' := by
  unfold entry
  rw [hb, Finset.sum_congr rfl fun k _ => by rw [hx k, hw k]]

end Cert.NodeEmbed

end
-- ==== Proof.RefMovie.lean ====
/-
  The reference's second result, read one operation at a time, is the movie embedding of its arguments:
  dot_general, the bias broadcast over the rows, the sum, and the maximum with the zero splat, at index (r, j), are
  max (Σ_k x[r,k]·W[k,j] + b[j]) 0.
-/
import proofs.«105462_g50276887167327_cont_8to1_c_1047_7_alg».proof.Proof.Gen.ReferenceIdeal.Read
import proofs.«105462_g50276887167327_cont_8to1_c_1047_7_alg».proof.Proof.Spec

noncomputable section

namespace Cert.NodeEmbed.Ref

open Idealize.ShloMosaic Idealize.ShloMosaic.ValueIdx Cert.ReferenceIdeal Cert.ReferenceIdeal.Read Cert.NodeEmbed

/-- The reference's `relu(dot(x, W) + b)` is `movie` of `x`, `W` and the entries of `b`. -/
theorem val_movie (x0 : (⟨S100000x128, .f32⟩ : BufTy).Contents (Elt Ideal)) (x2 : (⟨S128x32, .f32⟩ : BufTy).Contents (Elt Ideal))
    (x3 : (⟨S32, .f32⟩ : BufTy).Contents (Elt Ideal)) :
    val_main_v4 (F := Ideal) x0 x2 x3 = movie 100000 x0 x2 (fun j => x3 (ix1 j)) := by
  funext i
  have el : ∀ k : Fin 128, lidx_main_v0 i k = ix2 (i 0) k := fun k => funext fun a => Fin.ext (by
    match a with | ⟨0, _⟩ => rfl | ⟨1, _⟩ => rfl)
  have er : ∀ k : Fin 128, ridx_main_v0 i k = ix2 k (i 1) := fun k => funext fun a => Fin.ext (by
    match a with | ⟨0, _⟩ => rfl | ⟨1, _⟩ => rfl)
  have eb : idx_main_v1 (idx_main_v2 i) = ix1 (i 1) := funext fun a => Fin.ext (by
    match a with | ⟨0, _⟩ => rfl)
  rw [val_main_v4_apply, val_main_v3_apply, val_main_v0_apply, val_main_v2_apply, val_main_v1_apply,
    val_main_call0_v0_apply, val_main_call0_cst_apply]
  simp only [el, er, eb]
  rfl

end Cert.NodeEmbed.Ref

end
-- ==== Proof.HostEnds.lean ====
/-
  The arrays the host lines around the region make.

  Before the region the user table [1000000, 32] is re-laid as [250000, 128] and the bias [32] as one row [1, 32];
  after it the region's first output [250000, 128] is re-laid as [1000000, 32]. A re-laying keeps the row-major order,
  so there and back is the identity.
-/
import proofs.«105462_g50276887167327_cont_8to1_c_1047_7_alg».proof.Proof.Gen.KernelIdeal.Frame
import Idealize.ShloMosaic.Lib.StableHlo.Run
import Idealize.ShloMosaic.Lib.Pipeline.Value

noncomputable section

namespace Cert.NodeEmbed.Host

open Idealize.ShloMosaic Idealize.ShloMosaic.TcCoe Idealize.SL.Sem Cert.KernelIdeal Cert.KernelIdeal.Gen
open Idealize.ShloMosaic.StableHlo

variable {F : FTy → Type} [FloatOps F] [Cert.KernelIdeal.Facts]
variable (m : (ℓ : Loc nD τ sig) → Buf (Elt F) ℓ)

/-- The region finds the user table re-laid 128 wide. -/
theorem V_wide (c : Dev nD) :
    (V m c main_v0 : S250000x128.Idx → Elt F .f32)
      = shapeCast S250000x128 (m ((c : Thread nD τ).loc main_arg1)) shapeCasts_S1000000x32_S250000x128 := by
  show StableHlo.after hostOps0 (fun b => m (c, b)) (Proc.devRef .tc main_v0) = _
  after_results
  rfl

/-- The region finds the bias as one row. -/
theorem V_bias (c : Dev nD) :
    (V m c main_v1 : S1x32.Idx → Elt F .f32)
      = shapeCast S1x32 (m ((c : Thread nD τ).loc main_arg3)) shapeCasts_S32_S1x32 := by
  show StableHlo.after hostOps0 (fun b => m (c, b)) (Proc.devRef .tc main_v1) = _
  after_results
  rfl

/-- The line after the region re-lays the region's first output array 32 wide. -/
theorem tail_user (c : Dev nD) :
    (Pipeline.afterTail₀ cfgs (dats m) 0 (V0 m) [hostOps1] c main_v3 : S1000000x32.Idx → Elt F .f32)
      = shapeCast S1000000x32 ((dats m 0 c).arrAt 4 cfg0.N) shapeCasts_S250000x128_S1000000x32 := by
  unfold Pipeline.afterTail₀
  show StableHlo.after hostOps1 _ (Proc.devRef .tc main_v3) = _
  after_results
  exact congrArg (fun a : S250000x128.Idx → Elt F .f32 => shapeCast S1000000x32 a shapeCasts_S250000x128_S1000000x32)
    (Pipeline.withArrays_arr spec0 launch0.win.arr_inj c (V0 m c) (fun w => (dats m 0 c).arrAt w cfg0.N) 4)

end Cert.NodeEmbed.Host

end
-- ==== Proof.UserBlocks.lean ====
/-
  The region's first output array is the wide user table it was given.

  At grid point t the body copies the block of rows [10000·t, 10000·t + 10000) of the wide table into the output's
  block with the same rows; the 25 blocks tile the 250000 rows, so after the run the whole array is the wide table.
-/
import proofs.«105462_g50276887167327_cont_8to1_c_1047_7_alg».proof.Proof.Gen.KernelIdeal.Frame
import Idealize.ShloMosaic.Lib.Pipeline.Value

set_option maxRecDepth 16384

noncomputable section

namespace Cert.NodeEmbed.User

open Idealize.ShloMosaic Idealize.ShloMosaic.TcCoe Idealize.SL.Sem Cert.KernelIdeal Cert.KernelIdeal.Gen
open Idealize.ShloMosaic.Pipeline (Dat)

variable {F : FTy → Type} [FloatOps F] [Cert.KernelIdeal.Facts]
variable (m : (ℓ : Loc nD τ sig) → Buf (Elt F) ℓ)

theorem origin : (![0, 0] : Fin 2 → Nat) = fun _ => 0 := funext fun a => by fin_cases a <;> rfl

/-- At point `t` the wide table's window and the first output's window both sit at block row `t`, block column 0. -/
theorem block_at : ∀ t : Fin cfg0.N, win0_1.index t (0 : Fin 2) = t.val ∧ win0_1.index t (1 : Fin 2) = 0
    ∧ win0_4.index t (0 : Fin 2) = t.val ∧ win0_4.index t (1 : Fin 2) = 0 :=
  (by decide +kernel : ∀ t : Fin grid0.N, win0_1.index t (0 : Fin 2) = t.val ∧ win0_1.index t (1 : Fin 2) = 0
    ∧ win0_4.index t (0 : Fin 2) = t.val ∧ win0_4.index t (1 : Fin 2) = 0)

/-- What point `t` writes back to the first output is block `t` of the wide table. -/
theorem flushed_wide (c : Dev nD) (t : Fin cfg0.N) :
    (dats m 0 c).flushed 4 t = ((cfg0.win 4).blk t).view.read (Elt F) (V m c main_v0) := by
  show (cfg0.win 4).cut (grid0.coords t) ((dats m 0 c).after 4 t) = _
  rw [after0_4]
  unfold out0_4
  rw [View.canon_unit_zero origin]
  simp only [View.ld_unit_zero (S := S10000x128) origin]
  unfold k0_pay1
  rw [shapeCast_self]
  obtain ⟨e0, e1, e2, e3⟩ := block_at t
  refine funext fun (j : S10000x128.Idx) => ?_
  show V m c main_v0 (((cfg0.win 1).blk t).view.emb j) = V m c main_v0 (((cfg0.win 4).blk t).view.emb j)
  have h : ((cfg0.win 1).blk t).view.emb j = ((cfg0.win 4).blk t).view.emb j := by
    funext a; apply Fin.ext
    match a with
    | ⟨0, _⟩ => show win0_1.index t (0 : Fin 2) * 10000 + 1 * (j 0).val = win0_4.index t (0 : Fin 2) * 10000 + 1 * (j 0).val; omega
    | ⟨1, _⟩ => show win0_1.index t (1 : Fin 2) * 128 + 1 * (j 1).val = win0_4.index t (1 : Fin 2) * 128 + 1 * (j 1).val; omega
  rw [h]

/-- An index of the first output is in point `t`'s block iff each coordinate is in the block's range. -/
theorem mem_block (t : Fin cfg0.N) (i : S250000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v2_0).slice (win0_4.rect t)).set ↔ _
  rw [View.set_slice_whole, Rect.mem_set_unit]
  exact Iff.rfl

/-- Row `r` of the first output is written back at point `r / 10000`. -/
theorem covered (i : S250000x128.Idx) :
    ∃ t : Fin cfg0.N, (cfg0.win 4).flush t = true ∧ i ∈ ((cfg0.win 4).blk t).view.set := by
  have hi0 : (i 0).val < 250000 := (i 0).isLt
  have hi1 : (i 1).val < 128 := (i 1).isLt
  obtain ⟨t, ht⟩ : ∃ t : Fin cfg0.N, t.val = (i 0).val / 10000 :=
    ⟨⟨(i 0).val / 10000, by show (i 0).val / 10000 < grid0.N; rw [N_0]; omega⟩, rfl⟩
  obtain ⟨e0, e1, e2, e3⟩ := block_at t
  refine ⟨t, flush0_4 t, ?_⟩
  rw [mem_block]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-- After the run the first output array is the wide user table. -/
theorem final_wide (c : Dev nD) : (dats m 0 c).arrAt 4 cfg0.N = V m c main_v0 :=
  (dats m 0 c).arrAt_eq_of_cover 4 (V m c main_v0) (fun t _ => flushed_wide m c t) covered

end Cert.NodeEmbed.User

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.Payload.lean ====
/-
  What the kernel body stores into its movie block, entry by entry.

  The body multiplies its 4000-row block of the features by the whole weight matrix into a zero accumulator, adds the
  bias row spread over the 4000 rows, and takes the maximum with a zero splat. At (p, q) that is
  max (Σ_k x[p,k]·W[k,q] + b[0,q]) 0: the movie entry of the block's rows.
-/
import proofs.«105462_g50276887167327_cont_8to1_c_1047_7_alg».proof.Proof.Gen.KernelIdeal.Skeleton
import proofs.«105462_g50276887167327_cont_8to1_c_1047_7_alg».proof.Proof.LibPlainDot
import proofs.«105462_g50276887167327_cont_8to1_c_1047_7_alg».proof.Proof.Spec
import Idealize.ShloMosaic.Lib.ValueLayout

noncomputable section

namespace Cert.NodeEmbed.Body

open Idealize.ShloMosaic Idealize.ShloMosaic.ValueIdx Cert.KernelIdeal Cert.KernelIdeal.Gen Cert.NodeEmbed Cert.Lib

variable [Cert.KernelIdeal.Facts]

/-- The body's matrix product is the plain `4000×128` by `128×32` one. -/
theorem dot_plain : dot_S4000x128_S128x32_S4000x32_1_0_0_1_n_n = DotDims.plain 4000 128 32 := rfl

/-- The stored block at `(p, q)` is the movie entry of the loaded feature rows, weights and bias row. -/
theorem pay_entry (x0 : FVec Ideal S4000x128 .f32) (x2 : FVec Ideal S128x32 .f32) (x3 : FVec Ideal S1x32 .f32)
    (p : Fin 4000) (q : Fin 32) :
    k0_pay2 (F := Ideal) x0 x2 x3 (ix2 p q) = entry 4000 x0 x2 (fun j => x3 (ix2 (0 : Fin 1) j)) p q := by
  unfold k0_pay2 entry
  rw [shapeCast_self]
  show max (matmul dot_S4000x128_S128x32_S4000x32_1_0_0_1_n_n none x0 x2 (constant S4000x32 .f32 0x00000000#32) (ix2 p q)
      + broadcastTo S4000x32 x3 broadcasts_S1x32_S4000x32 (ix2 p q)) _ = _
  rw [dot_plain, plain_matmul_zero_apply, broadcastTo_1b_ab_apply]
  rfl

end Cert.NodeEmbed.Body

end
-- ==== Proof.MovieBlocks.lean ====
/-
  The region's second output array is the movie embedding of the arrays the region finds.

  At grid point t the body sees rows [4000·t, 4000·t + 4000) of the features, the whole weight matrix and the bias row,
  and stores the movie entries of those rows into the output's block with the same rows. An entry depends only on its
  own feature row, so the block is the restriction of the whole-array function; the 25 blocks tile the 100000 rows.
-/
import proofs.«105462_g50276887167327_cont_8to1_c_1047_7_alg».proof.Proof.Gen.KernelIdeal.Frame
import proofs.«105462_g50276887167327_cont_8to1_c_1047_7_alg».proof.Proof.Payload
import Idealize.ShloMosaic.Lib.Pipeline.Value

set_option maxRecDepth 16384

noncomputable section

namespace Cert.NodeEmbed.Movie

open Idealize.ShloMosaic Idealize.ShloMosaic.TcCoe Idealize.ShloMosaic.ValueIdx Idealize.SL.Sem
open Cert.KernelIdeal Cert.KernelIdeal.Gen Cert.NodeEmbed
open Idealize.ShloMosaic.Pipeline (Dat)

variable [Cert.KernelIdeal.Facts]
variable (m : (ℓ : Loc nD τ sig) → Buf (Elt Ideal) ℓ)

theorem origin : (![0, 0] : Fin 2 → Nat) = fun _ => 0 := funext fun a => by fin_cases a <;> rfl

/-- The second output as one function of the arrays the region finds: the movie embedding of the features, the
    weights and the bias row's entries. -/
def whole (c : Dev nD) : S100000x32.Idx → EReal :=
  movie 100000 (V m c main_arg0) (V m c main_arg2) (fun j => V m c main_v1 (ix2 (0 : Fin 1) j))

/-- At point `t` the features' window and the second output's window sit at block row `t`, block column 0; the
    weights' and the bias row's windows never move. -/
theorem block_at : ∀ t : Fin cfg0.N, win0_0.index t (0 : Fin 2) = t.val ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = t.val ∧ win0_5.index t (1 : Fin 2) = 0 :=
  (by decide +kernel : ∀ t : Fin grid0.N, win0_0.index t (0 : Fin 2) = t.val ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = t.val ∧ win0_5.index t (1 : Fin 2) = 0)

/-- What point `t` writes back to the second output is block `t` of the whole-array function. -/
theorem flushed_whole (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold out0_5
  rw [View.canon_unit_zero origin]
  simp only [View.ld_unit_zero (S := S4000x128) origin, View.ld_unit_zero (S := S128x32) origin,
    View.ld_unit_zero (S := S1x32) origin]
  obtain ⟨e0, e1, e2, e3, e4, e5, e6, e7⟩ := block_at t
  refine funext fun (j : S4000x32.Idx) => ?_
  obtain ⟨p, q, rfl⟩ : ∃ (p : Fin 4000) (q : Fin 32), j = ix2 p q := ⟨j 0, j 1, eq_ix2 (n0 := 4000) (n1 := 32) j⟩
  obtain ⟨i, hi⟩ : ∃ i : S100000x32.Idx, i = ((cfg0.win 5).blk t).view.emb (ix2 p q) := ⟨_, rfl⟩
  have hi0 : (i 0).val = win0_5.index t (0 : Fin 2) * 4000 + 1 * p.val := by rw [hi]; rfl
  have hi1 : (i 1).val = win0_5.index t (1 : Fin 2) * 32 + 1 * q.val := by rw [hi]; rfl
  show k0_pay2 (iblk m c 0 t) (iblk m c 2 t) (iblk m c 3 t) (ix2 p q) = whole m c (((cfg0.win 5).blk t).view.emb (ix2 p q))
  rw [← hi]
  refine (Body.pay_entry (iblk m c 0 t) (iblk m c 2 t) (iblk m c 3 t) p q).trans ?_
  unfold whole movie
  refine entry_congr (fun k => ?_) (fun k => ?_) ?_
  · show V m c main_arg0 (((cfg0.win 0).blk t).view.emb (ix2 p k))
      = V m c main_arg0 (ix2 (i 0) k)
    refine congrArg (V m c main_arg0) (funext fun a => Fin.ext ?_)
    match a with
    | ⟨0, _⟩ => show win0_0.index t (0 : Fin 2) * 4000 + 1 * p.val = (i 0).val; omega
    | ⟨1, _⟩ => show win0_0.index t (1 : Fin 2) * 128 + 1 * k.val = k.val; omega
  · show V m c main_arg2 (((cfg0.win 2).blk t).view.emb (ix2 k q))
      = V m c main_arg2 (ix2 k (i 1))
    refine congrArg (V m c main_arg2) (funext fun a => Fin.ext ?_)
    match a with
    | ⟨0, _⟩ => show win0_2.index t (0 : Fin 2) * 128 + 1 * k.val = k.val; omega
    | ⟨1, _⟩ => show win0_2.index t (1 : Fin 2) * 32 + 1 * q.val = (i 1).val; omega
  · show V m c main_v1 (((cfg0.win 3).blk t).view.emb (ix2 (0 : Fin 1) q))
      = V m c main_v1 (ix2 (0 : Fin 1) (i 1))
    refine congrArg (V m c main_v1) (funext fun a => Fin.ext ?_)
    match a with
    | ⟨0, _⟩ => show win0_3.index t (0 : Fin 2) * 1 + 1 * 0 = 0; omega
    | ⟨1, _⟩ => show win0_3.index t (1 : Fin 2) * 32 + 1 * q.val = (i 1).val; omega

/-- An index of the second output is in point `t`'s block iff each coordinate is in the block's range. -/
theorem mem_block (t : Fin cfg0.N) (i : S100000x32.Idx) :
    i ∈ ((cfg0.win 5).blk t).view.set ↔ ∀ a : Fin 2, win0_5.index t a * S4000x32.size a ≤ (i a).val ∧ (i a).val < win0_5.index t a * S4000x32.size a + S4000x32.size a := by
  show i ∈ ((View.whole main_v2_1).slice (win0_5.rect t)).set ↔ _
  rw [View.set_slice_whole, Rect.mem_set_unit]
  exact Iff.rfl

/-- Row `r` of the second output is written back at point `r / 4000`. -/
theorem covered (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ : ∃ t : Fin cfg0.N, t.val = (i 0).val / 4000 :=
    ⟨⟨(i 0).val / 4000, by show (i 0).val / 4000 < grid0.N; rw [N_0]; omega⟩, rfl⟩
  obtain ⟨e0, e1, e2, e3, e4, e5, e6, e7⟩ := block_at t
  refine ⟨t, flush0_5 t, ?_⟩
  rw [mem_block]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 32 ≤ (i 1).val ∧ (i 1).val < win0_5.index t (1 : Fin 2) * 32 + 32; omega

/-- After the run the second output array is the movie embedding of the arrays the region found. -/
theorem final_whole (c : Dev nD) : (dats m 0 c).arrAt 5 cfg0.N = whole m c :=
  (dats m 0 c).arrAt_eq_of_cover 5 (whole m c) (fun t _ => flushed_whole m c t) covered

end Cert.NodeEmbed.Movie

end
-- ==== Proof.KernelRun.lean ====
/-
  The idealized kernel's run with both results named as functions of the arguments.

  First result: the line after the region re-lays, 32 wide, the region's first output, which is the 128-wide
  re-laying of the user table; there and back is the table itself. Second result: the region's second output, the
  movie embedding of the features, the weights and the bias row's entries, the bias row being the bias re-laid as
  [1, 32], whose entry (0, j) is the bias at j.
-/
import proofs.«105462_g50276887167327_cont_8to1_c_1047_7_alg».proof.Proof.Gen.KernelIdeal.Frame
import proofs.«105462_g50276887167327_cont_8to1_c_1047_7_alg».proof.Proof.HostEnds
import proofs.«105462_g50276887167327_cont_8to1_c_1047_7_alg».proof.Proof.UserBlocks
import proofs.«105462_g50276887167327_cont_8to1_c_1047_7_alg».proof.Proof.MovieBlocks
import Idealize.ShloMosaic.Lib.ValueLayout

noncomputable section

namespace Cert.NodeEmbed.Run

open Idealize.ShloMosaic Idealize.ShloMosaic.TcCoe Idealize.ShloMosaic.ValueIdx Idealize.SL.Sem
open Cert.KernelIdeal Cert.KernelIdeal.Gen Cert.NodeEmbed

variable [Cert.KernelIdeal.Facts]
variable (m : (ℓ : Loc nD τ sig) → Buf (Elt Ideal) ℓ) (ρ : Dev nD → PrngReg)

/-- The first result is the user table as launched. -/
theorem user_back (c : Dev nD) :
    (Pipeline.afterTail₀ cfgs (dats m) 0 (V0 m) [hostOps1] c main_v3 : S1000000x32.Idx → EReal)
      = m ((c.tc : Thread nD τ).loc main_arg1) := by
  rw [Host.tail_user, User.final_wide, Host.V_wide]
  exact shapeCast_shapeCast (s := S1000000x32) (t := S250000x128) _ _ _

/-- The second output, as a function of the arrays the region finds, is the movie embedding of the arguments. -/
theorem whole_args (c : Dev nD) :
    Movie.whole m c = movie 100000 (m ((c.tc : Thread nD τ).loc main_arg0)) (m ((c.tc : Thread nD τ).loc main_arg2))
      (fun j => m ((c.tc : Thread nD τ).loc main_arg3) (ix1 j)) := by
  unfold Movie.whole
  rw [V_main_arg0, V_main_arg2, Host.V_bias]
  refine congrArg (movie 100000 _ _) (funext fun j => ?_)
  exact shapeCast_a_1a_apply _ _ (0 : Fin 1) j

/-- Every weakly fair execution of the idealized kernel ends with the user table in its first result, the movie
    embedding in its second, and the arguments as launched. -/
theorem run : θ_run defs (onTc (τ := τ) (main (F := Ideal))) ⟨m, fun _ => 0, ρ⟩ (fun r => ∀ c : Dev nD,
      (r.2.mem ((c.tc : Thread nD τ).loc main_v3) : S1000000x32.Idx → EReal) = m ((c.tc : Thread nD τ).loc main_arg1)
      ∧ r.2.mem ((c.tc : Thread nD τ).loc main_v2_1)
        = movie 100000 (m ((c.tc : Thread nD τ).loc main_arg0)) (m ((c.tc : Thread nD τ).loc main_arg2))
            (fun j => m ((c.tc : Thread nD τ).loc main_arg3) (ix1 j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v3 (Pipeline.mem_restRefs_of main_v3 (by decide) (by decide))).trans (user_back m c),
     ((h c).1 5).trans ((Movie.final_whole m c).trans (whole_args m c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c))),
     ((h c).2 main_arg3 (Pipeline.mem_restRefs_of main_arg3 (by decide) (by decide))).trans (W_main_arg3 m (dats m) c)⟩)
    (run_main m ρ)

end Cert.NodeEmbed.Run

end
-- ==== Proof.lean ====
/-
  Node embeddings: the kernel returns the user table and relu(movie_x · W + b), as the reference does.

  User table. The kernel re-lays the [1000000, 32] table as [250000, 128], copies it block by block (25 blocks of
  10000 rows) and re-lays the copy as [1000000, 32]; a re-laying keeps the row-major order, so the result is the
  table itself, which is what the reference returns.

  Movie embedding. At grid point t the kernel multiplies rows [4000·t, 4000·t + 4000) of the features by the whole
  weight matrix, adds the bias row and clamps at zero; entry (r, j) of the assembled array is
  max (Σ_k x[r,k]·W[k,j] + b[j]) 0. The reference's dot_general, broadcast bias, sum and maximum give the same
  expression at (r, j), summand by summand in the same order, so no law of arithmetic and no finiteness is used.

  The ideal pass rewrote nothing, so there is nothing to preserve.
-/
import proofs.«105462_g50276887167327_cont_8to1_c_1047_7_alg».proof.Defs
import proofs.«105462_g50276887167327_cont_8to1_c_1047_7_alg».proof.Proof.Gen.Kernel
import proofs.«105462_g50276887167327_cont_8to1_c_1047_7_alg».proof.Proof.Gen.Kernel.Frame
import proofs.«105462_g50276887167327_cont_8to1_c_1047_7_alg».proof.Proof.Gen.KernelIdeal
import proofs.«105462_g50276887167327_cont_8to1_c_1047_7_alg».proof.Proof.Gen.KernelIdeal.Frame
import proofs.«105462_g50276887167327_cont_8to1_c_1047_7_alg».proof.Proof.Gen.ReferenceIdeal
import proofs.«105462_g50276887167327_cont_8to1_c_1047_7_alg».proof.Proof.Gen.ReferenceIdeal.Run
import proofs.«105462_g50276887167327_cont_8to1_c_1047_7_alg».proof.Proof.Gen.ReferenceIdeal.Read
import proofs.«105462_g50276887167327_cont_8to1_c_1047_7_alg».proof.Proof.Gen.Pre_finite_inputs
import proofs.«105462_g50276887167327_cont_8to1_c_1047_7_alg».proof.Proof.RefMovie
import proofs.«105462_g50276887167327_cont_8to1_c_1047_7_alg».proof.Proof.KernelRun
import Idealize.ShloMosaic.Adequacy
import Idealize.ShloMosaic.Init

noncomputable section

namespace Cert.Proof

open Idealize.ShloMosaic Idealize.ShloMosaic.ValueIdx Idealize.SL.Sem Cert.NodeEmbed

/-- The word-level kernel runs and leaves its arguments as launched. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference is host operations only: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both programs end with the user table and the movie embedding of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => movie 100000 (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (fun j => m ((c.tc : Thread Cert.KernelIdeal.nD Cert.KernelIdeal.τ).loc Cert.KernelIdeal.main_arg3) (ix1 j)),
    Run.run m ρ, ?_⟩
  refine (θ_run Cert.ReferenceIdeal.defs _ _).mono (fun _ h c => ⟨?_, ?_, (h c).2.2⟩)
    (Cert.ReferenceIdeal.Value.run (F := Ideal) m' ρ')
  · exact (h c).1.trans (hagree c).2.1
  · rw [(h c).2.1, Cert.ReferenceIdeal.Read.val_main_v4_eq, Ref.val_movie, (hagree c).1, (hagree c).2.2.1,
      (hagree c).2.2.2]

theorem claim : Cert.Claim := ⟨Cert.Kernel.Gen.facts, Cert.KernelIdeal.Gen.facts, Cert.ReferenceIdeal.Gen.facts,
  Cert.Pre_finite_inputs.Gen.facts, frame_kernel, frame_ideal, frame_reference, trivial, algebraic⟩

end Cert.Proof

end
